-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x128 : Shape := ⟨3, ![128, 2048, 128]⟩
abbrev S128 : Shape := ⟨1, ![128]⟩
abbrev S5x512x128 : Shape := ⟨3, ![5, 512, 128]⟩
abbrev S5x512 : Shape := ⟨2, ![5, 512]⟩
abbrev S_ : Shape := ⟨0, ![]⟩

class Facts : Prop where
  bcast_S_S128x2048x128 : S_.BroadcastsInDim S128x2048x128 (![] : Fin 0 → Fin S128x2048x128.rank)
  reducesTo_S128x2048x128_S_d0_1_2 : S128x2048x128.ReducesTo [0, 1, 2] S_
  h_S_ : 0 < S_.numel
  bcast_S_S5x512x128 : S_.BroadcastsInDim S5x512x128 (![] : Fin 0 → Fin S5x512x128.rank)
  reducesTo_S5x512x128_S_d0_1_2 : S5x512x128.ReducesTo [0, 1, 2] S_
  bcast_S_S5x512 : S_.BroadcastsInDim S5x512 (![] : Fin 0 → Fin S5x512.rank)
  reducesTo_S5x512_S_d0_1 : S5x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S128 32) (main_v13 : IVec S_ 1) (main_v15 : IVec S128 1) (main_c_5 : IVec S_ 32) : IVec S_ 1 :=
  let main_v16 : IVec S128 32 := broadcastInDim S128 ![] bcast_S_S128 main_c_5
  let main_v17 : IVec S128 1 := cmpi .slt main_arg1 main_v16
  let main_v18 : IVec S128 1 := andi main_v15 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v13 main_v19
  main_v20

def fn {F : FTy → Type} [FloatOps F] (main_arg0 : FVec F S128x2048x128 .f32) (main_arg1 : IVec S128 32) (main_arg2 : FVec F S5x512x128 .f32) (main_arg3 : FVec F S5x512 .f32) : IVec S_ 1 :=
  let main_v0 : FVec F S128x2048x128 .f32 := Host.absf main_arg0
  let main_cst : FVec F S_ .f32 := constant S_ .f32 0x7F800000#32
  let main_v1 : FVec F S128x2048x128 .f32 := broadcastInDim S128x2048x128 ![] bcast_S_S128x2048x128 main_cst
  let main_v2 : IVec S128x2048x128 1 := cmpf .olt main_v0 main_v1
  let main_c : IVec S_ 1 := constantI S_ 1 1#1
  let main_v3 : IVec S_ 1 := (fun x v => Host.reduce IntOp.andi x v reducesTo_S128x2048x128_S_d0_1_2 h_S_) main_v2 main_c
  let main_v4 : FVec F S5x512x128 .f32 := Host.absf main_arg2
  let main_cst_0 : FVec F S_ .f32 := constant S_ .f32 0x7F800000#32
  let main_v5 : FVec F S5x512x128 .f32 := broadcastInDim S5x512x128 ![] bcast_S_S5x512x128 main_cst_0
  let main_v6 : IVec S5x512x128 1 := cmpf .olt main_v4 main_v5
  let main_c_1 : IVec S_ 1 := constantI S_ 1 1#1
  let main_v7 : IVec S_ 1 := (fun x v => Host.reduce IntOp.andi x v reducesTo_S5x512x128_S_d0_1_2 h_S_) main_v6 main_c_1
  let main_v8 : IVec S_ 1 := andi main_v3 main_v7
  let main_v9 : FVec F S5x512 .f32 := Host.absf main_arg3
  let main_cst_2 : FVec F S_ .f32 := constant S_ .f32 0x7F800000#32
  let main_v10 : FVec F S5x512 .f32 := broadcastInDim S5x512 ![] bcast_S_S5x512 main_cst_2
  let main_v11 : IVec S5x512 1 := cmpf .olt main_v9 main_v10
  let main_c_3 : IVec S_ 1 := constantI S_ 1 1#1
  let main_v12 : IVec S_ 1 := (fun x v => Host.reduce IntOp.andi x v reducesTo_S5x512_S_d0_1 h_S_) main_v11 main_c_3
  let main_v13 : IVec S_ 1 := andi main_v8 main_v12
  let main_c_4 : IVec S_ 32 := constantI S_ 32 0#32
  let main_v14 : IVec S128 32 := broadcastInDim S128 ![] bcast_S_S128 main_c_4
  let main_v15 : IVec S128 1 := cmpi .sge main_arg1 main_v14
  let main_c_5 : IVec S_ 32 := constantI S_ 32 5#32
  fn_part1 (F := F) main_arg1 main_v13 main_v15 main_c_5
-- ==== Kernel.lean ====
abbrev S128x2048x128 : Shape := ⟨3, ![128, 2048, 128]⟩
abbrev S128 : Shape := ⟨1, ![128]⟩
abbrev S5x512x128 : Shape := ⟨3, ![5, 512, 128]⟩
abbrev S5x512 : Shape := ⟨2, ![5, 512]⟩
abbrev S5x128 : Shape := ⟨2, ![5, 128]⟩
abbrev S5x1x128 : Shape := ⟨3, ![5, 1, 128]⟩
abbrev S5x1x512 : Shape := ⟨3, ![5, 1, 512]⟩
abbrev S128x2048x512 : Shape := ⟨3, ![128, 2048, 512]⟩
abbrev S1x2048x128 : Shape := ⟨3, ![1, 2048, 128]⟩
abbrev S1x512x128 : Shape := ⟨3, ![1, 512, 128]⟩
abbrev S1 : Shape := ⟨1, ![1]⟩
abbrev S1x1x512 : Shape := ⟨3, ![1, 1, 512]⟩
abbrev S1x2048x512 : Shape := ⟨3, ![1, 2048, 512]⟩
abbrev S2048x128 : Shape := ⟨2, ![2048, 128]⟩
abbrev S512x128 : Shape := ⟨2, ![512, 128]⟩
abbrev S128x512 : Shape := ⟨2, ![128, 512]⟩
abbrev S2048x512 : Shape := ⟨2, ![2048, 512]⟩
abbrev S512 : Shape := ⟨1, ![512]⟩
abbrev S1x512 : Shape := ⟨2, ![1, 512]⟩

abbrev nBuf : Space → Nat
  | .hbm => 9
  | .vmem => 8
  | .smem => 1
  | _ => 0

abbrev bufTy : (tb : Table) → Fin (tcTables nBuf tb) → BufTy
  | .hbm, ⟨0, _⟩ => ⟨S128x2048x128, .f32⟩
  | .hbm, ⟨1, _⟩ => ⟨S5x512x128, .f32⟩
  | .hbm, ⟨2, _⟩ => ⟨S5x512, .f32⟩
  | .hbm, ⟨3, _⟩ => ⟨S5x128, .f32⟩
  | .hbm, ⟨4, _⟩ => ⟨S5x1x128, .f32⟩
  | .hbm, ⟨5, _⟩ => ⟨S5x512x128, .f32⟩
  | .hbm, ⟨6, _⟩ => ⟨S5x512x128, .f32⟩
  | .hbm, ⟨7, _⟩ => ⟨S5x1x512, .f32⟩
  | .hbm, ⟨8, _⟩ => ⟨S128x2048x512, .f32⟩
  | .local _ .vmem, ⟨0, _⟩ => ⟨S1x2048x128, .f32⟩
  | .local _ .vmem, ⟨1, _⟩ => ⟨S1x2048x128, .f32⟩
  | .local _ .vmem, ⟨2, _⟩ => ⟨S1x512x128, .f32⟩
  | .local _ .vmem, ⟨3, _⟩ => ⟨S1x512x128, .f32⟩
  | .local _ .vmem, ⟨4, _⟩ => ⟨S1x1x512, .f32⟩
  | .local _ .vmem, ⟨5, _⟩ => ⟨S1x1x512, .f32⟩
  | .local _ .vmem, ⟨6, _⟩ => ⟨S1x2048x512, .f32⟩
  | .local _ .vmem, ⟨7, _⟩ => ⟨S1x2048x512, .f32⟩
  | .local _ .smem, ⟨0, _⟩ => ⟨S128, .i32⟩
  | _, _ => ⟨S128x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S5x128_S5x1x128_0_2 : S5x128.BroadcastsInDim S5x1x128 (![0, 2] : Fin 2 → Fin S5x1x128.rank)
  bcast_S5x1x128_S5x512x128_0_1_2 : S5x1x128.BroadcastsInDim S5x512x128 (![0, 1, 2] : Fin 3 → Fin S5x512x128.rank)
  shapeCasts_S5x512_S5x1x512 : S5x512.ShapeCasts S5x1x512
  numel1_S1 : S1.numel = 1
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  transposes_S512x128_p1_0_S128x512 : S512x128.Transposes [1, 0] S128x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x128_S128x512_S2048x512_1_0_0_1_n_n_wf : DotDims.WF S2048x128 S128x512 S2048x512 [1] [0] [0] [1] [] []
  hrank0 : 0 < grid0.rank
  k0_off1_inb : ∀ i : grid0.Coords, ∀ a, (k0_off1 i) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S128x2048x128.size a
  hwx0_0 : ∀ i : grid0.Coords, EltTy.bits .f32 = 32 ∨ (Rect.block (s := S128x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S128x2048x512.size a
  hwx0_3 : ∀ i : grid0.Coords, EltTy.bits .f32 = 32 ∨ (Rect.block (s := S128x2048x512) S1x2048x512.size (cc0_transform_3 i) (hinb0_3 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev spec0_0 : Pipeline.WinSpec sig grid0.rank :=
  Pipeline.WinSpec.ofSpec (Memref.whole main_arg0) S1x2048x128.size reads0_0 false false 2 stage0_0 sem0_0 nbuf0_0 hstage0_0

abbrev spec0_1 : Pipeline.WinSpec sig grid0.rank :=
  Pipeline.WinSpec.ofSpec (Memref.whole main_v2) S1x512x128.size reads0_1 false false 2 stage0_1 sem0_1 nbuf0_1 hstage0_1

abbrev spec0_2 : Pipeline.WinSpec sig grid0.rank :=
  Pipeline.WinSpec.ofSpec (Memref.whole main_v3) S1x1x512.size reads0_2 false false 2 stage0_2 sem0_2 nbuf0_2 hstage0_2

abbrev spec0_3 : Pipeline.WinSpec sig grid0.rank :=
  Pipeline.WinSpec.ofSpec (Memref.whole main_v4) S1x2048x512.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x512x128.size a ≤ S5x512x128.size a), EltTy.bits .f32 = 32 ∨ (Rect.block (s := S5x512x128) S1x512x128.size (cc0_transform_1 k0_off1_inb numel1_S1 pf i) h).WholeWords (EltTy.packing .f32)) ∧
  (∀ i : grid0.Coords, ∃ h : (∀ a, (cc0_transform_2 k0_off1_inb numel1_S1 pf i a + 1) * S1x1x512.size a ≤ S5x1x512.size a), EltTy.bits .f32 = 32 ∨ (Rect.block (s := S5x1x512) S1x1x512.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S128x2048x128 : Shape := ⟨3, ![128, 2048, 128]⟩
abbrev S128 : Shape := ⟨1, ![128]⟩
abbrev S5x512x128 : Shape := ⟨3, ![5, 512, 128]⟩
abbrev S5x512 : Shape := ⟨2, ![5, 512]⟩
abbrev S5x128 : Shape := ⟨2, ![5, 128]⟩
abbrev S5x1x128 : Shape := ⟨3, ![5, 1, 128]⟩
abbrev S_ : Shape := ⟨0, ![]⟩
abbrev S128x1 : Shape := ⟨2, ![128, 1]⟩
abbrev S128x512x128 : Shape := ⟨3, ![128, 512, 128]⟩
abbrev S128x512 : Shape := ⟨2, ![128, 512]⟩
abbrev S128x2048x512 : Shape := ⟨3, ![128, 2048, 512]⟩
abbrev S128x1x512 : Shape := ⟨3, ![128, 1, 512]⟩

abbrev nBuf : Space → Nat
  | .hbm => 30
  | .vmem => 0
  | .smem => 0
  | _ => 0

abbrev bufTy : (tb : Table) → Fin (tcTables nBuf tb) → BufTy
  | .hbm, ⟨0, _⟩ => ⟨S128x2048x128, .f32⟩
  | .hbm, ⟨1, _⟩ => ⟨S128, .i32⟩
  | .hbm, ⟨2, _⟩ => ⟨S5x512x128, .f32⟩
  | .hbm, ⟨3, _⟩ => ⟨S5x512, .f32⟩
  | .hbm, ⟨4, _⟩ => ⟨S5x128, .f32⟩
  | .hbm, ⟨5, _⟩ => ⟨S5x1x128, .f32⟩
  | .hbm, ⟨6, _⟩ => ⟨S5x512x128, .f32⟩
  | .hbm, ⟨7, _⟩ => ⟨S5x512x128, .f32⟩
  | .hbm, ⟨8, _⟩ => ⟨S_, .i32⟩
  | .hbm, ⟨9, _⟩ => ⟨S128, .i32⟩
  | .hbm, ⟨10, _⟩ => ⟨S128, .i1⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S128x1, .i32⟩
  | .hbm, ⟨16, _⟩ => ⟨S128x512x128, .f32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S128x512, .f32⟩
  | .hbm, ⟨26, _⟩ => ⟨S128x2048x512, .f32⟩
  | .hbm, ⟨27, _⟩ => ⟨S128x1x512, .f32⟩
  | .hbm, ⟨28, _⟩ => ⟨S128x2048x512, .f32⟩
  | .hbm, ⟨29, _⟩ => ⟨S128x2048x512, .f32⟩
  | _, _ => ⟨S128x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S5x128_S5x1x128_0_2 : S5x128.BroadcastsInDim S5x1x128 (![0, 2] : Fin 2 → Fin S5x1x128.rank)
  bcast_S5x1x128_S5x512x128_0_1_2 : S5x1x128.BroadcastsInDim S5x512x128 (![0, 1, 2] : Fin 3 → Fin S5x512x128.rank)
  bcast_S_S128 : S_.BroadcastsInDim S128 (![] : Fin 0 → Fin S128.rank)
  bcast_S128_S128x1_0 : S128.BroadcastsInDim S128x1 (![0] : Fin 1 → Fin S128x1.rank)
  bcast_S128x512_S128x1x512_0_2 : S128x512.BroadcastsInDim S128x1x512 (![0, 2] : Fin 2 → Fin S128x1x512.rank)
  bcast_S128x1x512_S128x2048x512_0_1_2 : S128x1x512.BroadcastsInDim S128x2048x512 (![0, 1, 2] : Fin 3 → Fin S128x2048x512.rank)
  gather_S5x512x128_S128x1_S128x512x128_12_0_n_n_0_1_1512128_wf : GatherDims.WF S5x512x128 S128x1 S128x512x128 [1, 2] [0] [] [0] [] 1 ![1, 512, 128]
  gather_S5x512_S128x1_S128x512_1_0_n_n_0_1_1512_wf : GatherDims.WF S5x512 S128x1 S128x512 [1] [0] [] [0] [] 1 ![1, 512]
  dot_S128x2048x128_S128x512x128_S128x2048x512_2_2_1_1_0_0_wf : DotDims.WF S128x2048x128 S128x512x128 S128x2048x512 [2] [2] [1] [1] [0] [0]

variable [Facts₀]

def gather_S5x512x128_S128x1_S128x512x128_12_0_n_n_0_1_1512128 : GatherDims S5x512x128 S128x1 S128x512x128 where
  offsetDims := [1, 2]
  collapsedSliceDims := [0]
  operandBatchingDims := []
  startIndicesBatchingDims := []
  startIndexMap := [0]
  indexVectorDim := 1
  sliceSizes := ![1, 512, 128]
  wf := gather_S5x512x128_S128x1_S128x512x128_12_0_n_n_0_1_1512128_wf
def gather_S5x512_S128x1_S128x512_1_0_n_n_0_1_1512 : GatherDims S5x512 S128x1 S128x512 where
  offsetDims := [1]
  collapsedSliceDims := [0]
  operandBatchingDims := []
  startIndicesBatchingDims := []
  startIndexMap := [0]
  indexVectorDim := 1
  sliceSizes := ![1, 512]
  wf := gather_S5x512_S128x1_S128x512_1_0_n_n_0_1_1512_wf
def dot_S128x2048x128_S128x512x128_S128x2048x512_2_2_1_1_0_0 : DotDims S128x2048x128 S128x512x128 S128x2048x512 where
  lhsContracting := [2]
  rhsContracting := [2]
  lhsNonContracting := [1]
  rhsNonContracting := [1]
  lhsBatch := [0]
  rhsBatch := [0]
  wf := dot_S128x2048x128_S128x512x128_S128x2048x512_2_2_1_1_0_0_wf

class Facts : Prop extends Facts₀ where

variable [Facts]
-- ==== Proof.Spec.lean ====
/-
  The function both programs compute, on the extended reals. For sample `b`, position `s` and output feature `e`:

      out[b, s, e] = (∑ k < 128, patches[b, s, k] · wm[row b, e, k]) + bias[row b, e]

  where `wm` is the masked weight array (the weights times the 0/1 table — the same array on both sides, so it is
  carried as an argument and never opened) and `row b` is the branch of sample `b`: the index word `idx[b]` read
  as a natural number and clamped to 4. Under the precondition every index word is one of 0 … 4, where the clamp
  does nothing and the signed and unsigned readings of the word agree; the clamp only makes `row` total.
-/
import Idealize.ShloMosaic.PureOps.Ideal
import Idealize.ShloMosaic.Lib.ValueIdx

noncomputable section

namespace Cert.Spec

open Idealize.ShloMosaic Idealize.ShloMosaic.ValueIdx

/-- The branch an index word names: its unsigned value, clamped to the last branch. -/
def row (v : BitVec 32) : Fin 5 := ⟨min v.toNat 4, by omega⟩

/-- An index word below 5 names the branch of that number. -/
theorem row_val {v : BitVec 32} (h : v.toNat < 5) : (row v).val = v.toNat := by
  unfold row
  show min v.toNat 4 = v.toNat
  omega

/-- The output at sample `b`, position `s`, feature `e`. -/
def outAt (x : (⟨3, ![128, 2048, 128]⟩ : Shape).Idx → EReal) (idx : (⟨1, ![128]⟩ : Shape).Idx → BitVec 32)
    (wm : (⟨3, ![5, 512, 128]⟩ : Shape).Idx → EReal) (bias : (⟨2, ![5, 512]⟩ : Shape).Idx → EReal)
    (b : Fin 128) (s : Fin 2048) (e : Fin 512) : EReal :=
  (∑ k : Fin 128, x (ix3 b s k) * wm (ix3 (row (idx (ix1 b))) e k)) + bias (ix2 (row (idx (ix1 b))) e)

/-- The whole output array. -/
def out (x : (⟨3, ![128, 2048, 128]⟩ : Shape).Idx → EReal) (idx : (⟨1, ![128]⟩ : Shape).Idx → BitVec 32)
    (wm : (⟨3, ![5, 512, 128]⟩ : Shape).Idx → EReal) (bias : (⟨2, ![5, 512]⟩ : Shape).Idx → EReal) :
    (⟨3, ![128, 2048, 512]⟩ : Shape).Idx → EReal :=
  fun j => outAt x idx wm bias (j 0) (j 1) (j 2)

theorem out_ix3 (x : (⟨3, ![128, 2048, 128]⟩ : Shape).Idx → EReal) (idx : (⟨1, ![128]⟩ : Shape).Idx → BitVec 32)
    (wm : (⟨3, ![5, 512, 128]⟩ : Shape).Idx → EReal) (bias : (⟨2, ![5, 512]⟩ : Shape).Idx → EReal)
    (b : Fin 128) (s : Fin 2048) (e : Fin 512) : out x idx wm bias (ix3 b s e) = outAt x idx wm bias b s e := rfl

/-- A word that is at least 0 and below `n` as a signed integer is below `n` as a natural number, and its signed
    reading is that natural number. -/
theorem toNat_lt_of_signed (v : BitVec 32) (n : Nat) (hn : n < 2 ^ 31) (h0 : IntOp.cmpi .sge v (0#32) = 1#1)
    (h1 : IntOp.cmpi .slt v (BitVec.ofNat 32 n) = 1#1) : v.toNat < n := by
  have ofBool_eq_one : ∀ b : Bool, BitVec.ofBool b = 1#1 ↔ b = true := by decide
  unfold IntOp.cmpi at h0 h1
  rw [ofBool_eq_one] at h0 h1
  simp only [BitVec.slt, BitVec.sle, decide_eq_true_eq] at h0 h1
  have h32 := v.isLt
  unfold BitVec.toInt at h0 h1
  split at h1 <;> simp at h0 h1 <;> omega

/-- A word below 5 is not negative as a signed integer, and its signed reading is its unsigned one. -/
theorem toInt_of_lt {v : BitVec 32} (h : v.toNat < 5) : v.toInt = (v.toNat : Int) := by
  unfold BitVec.toInt
  rw [if_pos (by omega)]

theorem not_slt_zero {v : BitVec 32} (h : v.toNat < 5) : IntOp.cmpi .slt v (0#32) = 0#1 := by
  unfold IntOp.cmpi
  have : BitVec.slt v 0#32 = false := by
    simp only [BitVec.slt, decide_eq_false_iff_not, not_lt]
    rw [toInt_of_lt h]
    simp
  simp [this]

end Cert.Spec

end
-- ==== Proof.PreDecode.lean ====
/-
  The precondition read back at the branch indices. The precondition is a conjunction, its last conjunct
  `jnp.all((idx >= 0) & (idx < 5))`: an `and`-reduction, from 1, of the elementwise conjunction of two signed
  comparisons. The whole being 1, that conjunct is 1; an `and`-reduction that is 1 met a 1 at every index; so at
  every sample the index word is at least 0 and below 5 as a signed integer, hence below 5 as a natural number.
  Nothing here depends on the float format: the float conjuncts are dropped unread.
-/
import proofs.«119452_j59596966199730_1_alg».proof.Pre_finite_inputs
import proofs.«119452_j59596966199730_1_alg».proof.Proof.Spec
import Idealize.ShloMosaic.Lib.ReduceAll
import Idealize.ShloMosaic.Lib.ValueIdx

noncomputable section

namespace Cert.PreDecode

open Idealize.ShloMosaic Idealize.ShloMosaic.ValueIdx

instance : Subsingleton Cert.Pre_finite_inputs.S_.Idx := ⟨fun a b => funext fun d => d.elim0⟩

variable {F : FTy → Type} [FloatOps F] [Cert.Pre_finite_inputs.Facts]

/-- Under the precondition every branch index word is below 5. -/
theorem idx_lt (a0 : FVec F Cert.Pre_finite_inputs.S128x2048x128 .f32) (a1 : IVec Cert.Pre_finite_inputs.S128 32)
    (a2 : FVec F Cert.Pre_finite_inputs.S5x512x128 .f32) (a3 : FVec F Cert.Pre_finite_inputs.S5x512 .f32)
    (h : Cert.Pre_finite_inputs.fn (F := F) a0 a1 a2 a3 = fun _ => 1#1) (b : Fin 128) : (a1 (ix1 b)).toNat < 5 := by
  have e := congrFun h ix0
  unfold Cert.Pre_finite_inputs.fn at e
  dsimp only at e
  unfold Cert.Pre_finite_inputs.fn_part1 at e
  dsimp only at e
  have e2 := (IntOp.andi_eq_one.1 e).2
  have e3 := Host.reduce_andi_all _ _ _ _ _ e2 (ix1 b)
  have e4 := IntOp.andi_eq_one.1 e3
  exact Cert.Spec.toNat_lt_of_signed _ 5 (by decide) e4.1 e4.2

end Cert.PreDecode

end
-- ==== Proof.OkBits.lean ====
/-
  The pipeline's side condition from the precondition. The weight and bias windows fetch, at grid point b, the
  block whose leading index is the table word idx[b] read as a natural number; the weight array has 5 such
  blocks and so has the bias array. Under the precondition every word is below 5, so every block lies inside
  its array; the transfers are of 32-bit words, so their ends are word-exact.
-/
import proofs.«119452_j59596966199730_1_alg».proof.Defs
import proofs.«119452_j59596966199730_1_alg».proof.Proof.Gen.Kernel.Frame
import proofs.«119452_j59596966199730_1_alg».proof.Proof.Gen.Pre_finite_inputs
import proofs.«119452_j59596966199730_1_alg».proof.Proof.PreDecode

set_option maxRecDepth 16384

noncomputable section

namespace Cert.Kernel.OkOfPre

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The table as the region finds it is the index argument as launched: no host operation writes it. -/
theorem tbl_eq : tbl m 0 = m (((0 : Dev nD) : Thread nD τ).loc main_arg1) := V_main_arg1 m 0

/-- Every word of the table is below 5 when every index word is. -/
theorem tbl_lt (hidx : ∀ b : Fin 128, (m (((0 : Dev nD) : Thread nD τ).loc main_arg1) (ix1 b)).toNat < 5) (x : S128.Idx) :
    (tbl m 0 x).toNat < 5 := by
  rw [tbl_eq m, eq_ix1 x]
  exact hidx _

/-- The side condition holds when every index word is below 5. -/
theorem ok_of_idx (hidx : ∀ b : Fin 128, (m (((0 : Dev nD) : Thread nD τ).loc main_arg1) (ix1 b)).toNat < 5) : Ok m := by
  refine ⟨fun i => ?_, fun i => ?_⟩
  · obtain ⟨w, hw, e⟩ : ∃ w : BitVec 32, w.toNat < 5 ∧ cc0_transform_1 k0_off1_inb numel1_S1 (tbl m) i = ![w.toNat, 0, 0] :=
      ⟨_, tbl_lt m hidx _, rfl⟩
    refine ⟨fun a => ?_, Or.inl rfl⟩
    rw [e]
    fin_cases a <;> simp [S1x512x128, S5x512x128] <;> omega
  · obtain ⟨w, hw, e⟩ : ∃ w : BitVec 32, w.toNat < 5 ∧ cc0_transform_2 k0_off1_inb numel1_S1 (tbl m) i = ![w.toNat, 0, 0] :=
      ⟨_, tbl_lt m hidx _, rfl⟩
    refine ⟨fun a => ?_, Or.inl rfl⟩
    rw [e]
    fin_cases a <;> simp [S1x1x512, S5x1x512] <;> omega

end Cert.Kernel.OkOfPre

end
-- ==== Proof.OkIdeal.lean ====
/-
  The pipeline's side condition from the precondition. The weight and bias windows fetch, at grid point b, the
  block whose leading index is the table word idx[b] read as a natural number; the weight array has 5 such
  blocks and so has the bias array. Under the precondition every word is below 5, so every block lies inside
  its array; the transfers are of 32-bit words, so their ends are word-exact.
-/
import proofs.«119452_j59596966199730_1_alg».proof.Defs
import proofs.«119452_j59596966199730_1_alg».proof.Proof.Gen.KernelIdeal.Frame
import proofs.«119452_j59596966199730_1_alg».proof.Proof.Gen.Pre_finite_inputs
import proofs.«119452_j59596966199730_1_alg».proof.Proof.PreDecode

set_option maxRecDepth 16384

noncomputable section

namespace Cert.KernelIdeal.OkOfPre

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The table as the region finds it is the index argument as launched: no host operation writes it. -/
theorem tbl_eq : tbl m 0 = m (((0 : Dev nD) : Thread nD τ).loc main_arg1) := V_main_arg1 m 0

/-- Every word of the table is below 5 when every index word is. -/
theorem tbl_lt (hidx : ∀ b : Fin 128, (m (((0 : Dev nD) : Thread nD τ).loc main_arg1) (ix1 b)).toNat < 5) (x : S128.Idx) :
    (tbl m 0 x).toNat < 5 := by
  rw [tbl_eq m, eq_ix1 x]
  exact hidx _

/-- The side condition holds when every index word is below 5. -/
theorem ok_of_idx (hidx : ∀ b : Fin 128, (m (((0 : Dev nD) : Thread nD τ).loc main_arg1) (ix1 b)).toNat < 5) : Ok m := by
  refine ⟨fun i => ?_, fun i => ?_⟩
  · obtain ⟨w, hw, e⟩ : ∃ w : BitVec 32, w.toNat < 5 ∧ cc0_transform_1 k0_off1_inb numel1_S1 (tbl m) i = ![w.toNat, 0, 0] :=
      ⟨_, tbl_lt m hidx _, rfl⟩
    refine ⟨fun a => ?_, Or.inl rfl⟩
    rw [e]
    fin_cases a <;> simp [S1x512x128, S5x512x128] <;> omega
  · obtain ⟨w, hw, e⟩ : ∃ w : BitVec 32, w.toNat < 5 ∧ cc0_transform_2 k0_off1_inb numel1_S1 (tbl m) i = ![w.toNat, 0, 0] :=
      ⟨_, tbl_lt m hidx _, rfl⟩
    refine ⟨fun a => ?_, Or.inl rfl⟩
    rw [e]
    fin_cases a <;> simp [S1x1x512, S5x1x512] <;> omega

end Cert.KernelIdeal.OkOfPre

end
-- ==== Proof.Blocks.lean ====
/-
  What the region's arrays and blocks hold, as functions of the launch memory. The body's one store leaves in the
  output's staging buffer the payload of the three loaded blocks. The arrays the weight and bias windows stage
  were written by host operations before the region: the masked weights (the weights times the 0/1 table) and the
  bias with a unit axis inserted. The patches' block at grid point t is slab t of the patches; the weight and bias
  blocks at t are the slabs whose number is the table word read at t, which is the index word of sample t.
-/
import proofs.«119452_j59596966199730_1_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable {F : FTy → Type} [FloatOps F]
variable (m : (ℓ : Loc nD τ sig) → Buf (Elt F) ℓ)

theorem hz : (![0, 0, 0] : Fin 3 → Nat) = fun _ => 0 := funext fun a => by fin_cases a <;> rfl

/-- The body's one store covers the output block: what it leaves there is the payload of the loaded blocks. -/
theorem out_eq_pay (c : Dev nD) (i : grid0.Coords) (arg2 : Memref sig .tc .vmem S1x2048x128 .f32) (harg2 : arg2.IsWhole) (arg3 : Memref sig .tc .vmem S1x512x128 .f32) (harg3 : arg3.IsWhole) (arg4 : Memref sig .tc .vmem S1x1x512 .f32) (harg4 : arg4.IsWhole) (arg5 : Memref sig .tc .vmem S1x2048x512 .f32) (harg5 : arg5.IsWhole)
    (x0 : Vec F S1x2048x128 .f32) (x1 : Vec F S1x512x128 .f32) (x2 : Vec F S1x1x512 .f32) (xt0 : TbBuf0 (F := F) c tbM0_0) :
    out0_A_3 c i arg2 harg2 arg3 harg3 arg4 harg4 arg5 harg5 x0 x1 x2 xt0 = k0_pay1 x0 x1 x2 := by
  unfold out0_A_3
  rw [View.read_writes_eq_canon _ _ _ (cover0_A_3 c i arg2 harg2 arg3 harg3 arg4 harg4 arg5 harg5 x0 x1 x2 xt0)]
  unfold kernelRun0_A
  dsimp only
  sl_unfold_words
  rw [View.canon_unit_zero hz]
  simp only [View.readAt_eq_ld, harg2.read_unread, harg3.read_unread, harg4.read_unread,
    View.ld_unit_zero (S := S1x2048x128) hz, View.ld_unit_zero (S := S1x512x128) hz, View.ld_unit_zero (S := S1x1x512) hz]

/-- The 5 × 128 table of zeros and ones, as floats, and the weights multiplied by it along the 512 axis. -/
def maskedW (w : FVec F S5x512x128 .f32) : FVec F S5x512x128 .f32 :=
  mulf w (broadcastInDim S5x512x128 ![0, 1, 2] bcast_S5x1x128_S5x512x128_0_1_2
    (broadcastInDim S5x1x128 ![0, 2] bcast_S5x128_S5x1x128_0_2 (fun i => FloatOps.ofBits .f32 (lit0 (S5x128.rowMajor i)))))

/-- The weight window's array, as the region finds it, is the masked weights of the launched weights. -/
theorem V_weights (c : Dev nD) : (V m c main_v2 : S5x512x128.Idx → Elt F .f32) = maskedW (m ((c : Thread nD τ).loc main_arg2)) := by
  unfold maskedW
  dsimp only [Gen.V, Gen.hostOps0]; after_results; rfl

/-- The bias window's array is the launched bias with a unit axis inserted. -/
theorem V_bias (c : Dev nD) : (V m c main_v3 : S5x1x512.Idx → Elt F .f32) = shapeCast S5x1x512 (m ((c : Thread nD τ).loc main_arg3)) shapeCasts_S5x512_S5x1x512 := by
  dsimp only [Gen.V, Gen.hostOps0]; after_results; rfl

end Cert.KernelIdeal.Blocks

end
-- ==== Proof.BlockReads.lean ====
/-
  Where each window's block sits in its array. At grid point t the patches window and the output window are at
  block (t, 0, 0); the weight and bias windows are at block (w, 0, 0), w the table word at position t read as a
  natural number. A block's coordinate on an axis is the block index times the block's extent plus the coordinate
  inside the block, so entry (0, s, k) of the patches block at t is entry (t, s, k) of the patches, and entry
  (0, e, k) of the weight block is entry (w, e, k) of the masked weights.
-/
import proofs.«119452_j59596966199730_1_alg».proof.Proof.Blocks

set_option maxRecDepth 16384

noncomputable section

namespace Cert.KernelIdeal.Blocks

open Cert.KernelIdeal Cert.KernelIdeal.Gen
open Idealize.ShloMosaic Idealize.ShloMosaic.TcCoe Idealize.SL.Sem
open Idealize.ShloMosaic.ValueIdx

variable {F : FTy → Type} [FloatOps F]

/-- Grid point t as a sample number. -/
def pt (a : (pcfg0 (F := F)).Adm) (t : Fin (cfg0 a).N) : Fin 128 := Fin.cast N_0 t

/-- The patches and output index maps send grid point t to block (t, 0, 0): decided over the 128 points. -/
theorem idx0_grid : ∀ t : Fin grid0.N, cc0_transform_0 (grid0.coords t) = ![t.val, 0, 0] := by decide +kernel
theorem idx3_grid : ∀ t : Fin grid0.N, cc0_transform_3 (grid0.coords t) = ![t.val, 0, 0] := by decide +kernel

/-- The table position the weight and bias index maps read at grid coordinates i. -/
def tix (i : grid0.Coords) : S128.Idx :=
  (Rect.unit (s := S128) ![(Scalar.indexCast (BitVec.ofNat 32 (i 0).val)).toNat] S1.size (k0_off1_inb i)).emb
    (Shape.Idx.first (numel1_S1.symm ▸ Nat.one_pos))

/-- At grid point t that position is t: decided over the 128 points. -/
theorem tix_val : ∀ t : Fin grid0.N, (tix (grid0.coords t) 0).val = t.val := by decide +kernel

theorem tix_eq (a : (pcfg0 (F := F)).Adm) (t : Fin (cfg0 a).N) : tix (grid0.coords t) = ix1 (pt a t) := by
  funext d
  match d with
  | ⟨0, _⟩ => exact Fin.ext (tix_val t)

/-- The weight and bias index maps, whatever the table holds: block (word at the position read, 0, 0). -/
theorem transform1_eq (pf : pre0.Contents (Elt F)) (i : grid0.Coords) :
    cc0_transform_1 k0_off1_inb numel1_S1 pf i = ![(pf 0 (tix i)).toNat, 0, 0] := rfl
theorem transform2_eq (pf : pre0.Contents (Elt F)) (i : grid0.Coords) :
    cc0_transform_2 k0_off1_inb numel1_S1 pf i = ![(pf 0 (tix i)).toNat, 0, 0] := rfl

/-- The four windows' block indices at grid point t, at any admissible contents of the table. -/
theorem index0 (a : (pcfg0 (F := F)).Adm) (t : Fin (cfg0 a).N) : ((cfg0 a).win 0).index t = ![t.val, 0, 0] := idx0_grid t
theorem index3 (a : (pcfg0 (F := F)).Adm) (t : Fin (cfg0 a).N) : ((cfg0 a).win 3).index t = ![t.val, 0, 0] := idx3_grid t
theorem index1 (a : (pcfg0 (F := F)).Adm) (t : Fin (cfg0 a).N) :
    ((cfg0 a).win 1).index t = ![(a.1 0 (ix1 (pt a t))).toNat, 0, 0] := by
  show cc0_transform_1 k0_off1_inb numel1_S1 a.1 (grid0.coords t) = _
  rw [transform1_eq, tix_eq a t]
theorem index2 (a : (pcfg0 (F := F)).Adm) (t : Fin (cfg0 a).N) :
    ((cfg0 a).win 2).index t = ![(a.1 0 (ix1 (pt a t))).toNat, 0, 0] := by
  show cc0_transform_2 k0_off1_inb numel1_S1 a.1 (grid0.coords t) = _
  rw [transform2_eq, tix_eq a t]

/-- Entry (u, s, k) of the patches block at t is entry (t, s, k) of the array. -/
theorem emb0 (a : (pcfg0 (F := F)).Adm) (t : Fin (cfg0 a).N) (u : Fin 1) (s : Fin 2048) (k : Fin 128) :
    (((cfg0 a).win 0).blk t).view.emb (ix3 u s k) = ix3 (pt a t) s k := by
  funext ax
  apply Fin.ext
  have hi := index0 a t
  have hu : u.val = 0 := by omega
  match ax with
  | ⟨0, _⟩ => show ((cfg0 a).win 0).index t (0 : Fin 3) * 1 + 1 * u.val = t.val; rw [hi, hu]; simp
  | ⟨1, _⟩ => show ((cfg0 a).win 0).index t (1 : Fin 3) * 2048 + 1 * s.val = s.val; rw [hi]; simp
  | ⟨2, _⟩ => show ((cfg0 a).win 0).index t (2 : Fin 3) * 128 + 1 * k.val = k.val; rw [hi]; simp

/-- Entry (u, s, e) of the output block at t is entry (t, s, e) of the array. -/
theorem emb3 (a : (pcfg0 (F := F)).Adm) (t : Fin (cfg0 a).N) (u : Fin 1) (s : Fin 2048) (e : Fin 512) :
    (((cfg0 a).win 3).blk t).view.emb (ix3 u s e) = ix3 (pt a t) s e := by
  funext ax
  apply Fin.ext
  have hi := index3 a t
  have hu : u.val = 0 := by omega
  match ax with
  | ⟨0, _⟩ => show ((cfg0 a).win 3).index t (0 : Fin 3) * 1 + 1 * u.val = t.val; rw [hi, hu]; simp
  | ⟨1, _⟩ => show ((cfg0 a).win 3).index t (1 : Fin 3) * 2048 + 1 * s.val = s.val; rw [hi]; simp
  | ⟨2, _⟩ => show ((cfg0 a).win 3).index t (2 : Fin 3) * 512 + 1 * e.val = e.val; rw [hi]; simp

/-- Entry (u, e, k) of the weight block at t is entry (r, e, k) of the array, r the branch the table word names. -/
theorem emb1 (a : (pcfg0 (F := F)).Adm) (t : Fin (cfg0 a).N) (r : Fin 5) (hr : (a.1 0 (ix1 (pt a t))).toNat = r.val)
    (u : Fin 1) (e : Fin 512) (k : Fin 128) :
    (((cfg0 a).win 1).blk t).view.emb (ix3 u e k) = ix3 r e k := by
  funext ax
  apply Fin.ext
  have hi := index1 a t
  have hu : u.val = 0 := by omega
  match ax with
  | ⟨0, _⟩ => show ((cfg0 a).win 1).index t (0 : Fin 3) * 1 + 1 * u.val = r.val; rw [hi, hu, ← hr]; simp
  | ⟨1, _⟩ => show ((cfg0 a).win 1).index t (1 : Fin 3) * 512 + 1 * e.val = e.val; rw [hi]; simp
  | ⟨2, _⟩ => show ((cfg0 a).win 1).index t (2 : Fin 3) * 128 + 1 * k.val = k.val; rw [hi]; simp

/-- Entry (u, v, e) of the bias block at t is entry (r, 0, e) of the array. -/
theorem emb2 (a : (pcfg0 (F := F)).Adm) (t : Fin (cfg0 a).N) (r : Fin 5) (hr : (a.1 0 (ix1 (pt a t))).toNat = r.val)
    (u : Fin 1) (v : Fin 1) (e : Fin 512) :
    (((cfg0 a).win 2).blk t).view.emb (ix3 u v e) = ix3 r (0 : Fin 1) e := by
  funext ax
  apply Fin.ext
  have hi := index2 a t
  have hu : u.val = 0 := by omega
  have hv : v.val = 0 := by omega
  match ax with
  | ⟨0, _⟩ => show ((cfg0 a).win 2).index t (0 : Fin 3) * 1 + 1 * u.val = r.val; rw [hi, hu, ← hr]; simp
  | ⟨1, _⟩ => show ((cfg0 a).win 2).index t (1 : Fin 3) * 1 + 1 * v.val = 0; rw [hi, hv]; simp
  | ⟨2, _⟩ => show ((cfg0 a).win 2).index t (2 : Fin 3) * 512 + 1 * e.val = e.val; rw [hi]; simp

end Cert.KernelIdeal.Blocks

end
-- ==== Proof.Payload.lean ====
/-
  The kernel body's stored value, read at an index. At one grid point the body loads a [1, 2048, 128] block of
  patches, a [1, 512, 128] block of masked weights and a [1, 1, 512] block of bias, and stores, as a
  [1, 2048, 512] block, the product of the patches with the transposed weights plus the bias along the rows.
  On the extended reals the narrowing to bf16 is the identity and the product into a zero accumulator is the
  plain sum, so the stored entry (0, s, e) is  ∑ k < 128, patches(0, s, k) · weights(0, e, k) + bias(0, 0, e).
-/
import proofs.«119452_j59596966199730_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- A [1, 1, a] array cast to [a] reads, at i, the operand at (0, 0, i). -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

abbrev D := dot_S2048x128_S128x512_S2048x512_1_0_0_1_n_n

/-- The product's left operand index at output (s, e) and contraction position q: row s, column q. -/
theorem lhs0 (j : S2048x512.Idx) (q : D.contr.Idx) : (D.lhsIdx j q 0).val = (j 0).val := by
  unfold DotDims.lhsIdx
  rw [dif_neg (show ¬(0 : Fin S2048x128.rank) ∈ D.lhsBatch by decide), dif_pos (show (0 : Fin S2048x128.rank) ∈ D.lhsNonContracting by decide)]
  rfl
theorem lhs1 (j : S2048x512.Idx) (q : D.contr.Idx) : (D.lhsIdx j q 1).val = (q ⟨0, by decide⟩).val :=
  D.lhsIdx_val_of_single rfl j q
/-- The right operand's: row q, column e. -/
theorem rhs0 (j : S2048x512.Idx) (q : D.contr.Idx) : (D.rhsIdx j q 0).val = (q ⟨0, by decide⟩).val :=
  D.rhsIdx_val_of_single rfl j q
theorem rhs1 (j : S2048x512.Idx) (q : D.contr.Idx) : (D.rhsIdx j q 1).val = (j 1).val := by
  unfold DotDims.rhsIdx
  rw [dif_neg (show ¬(1 : Fin S128x512.rank) ∈ D.rhsBatch by decide), dif_pos (show (1 : Fin S128x512.rank) ∈ D.rhsNonContracting by decide)]
  rfl

/-- The product into the zero accumulator, at (s, e): the sum over the 128 contraction positions. -/
theorem matmul_at (l : FVec Ideal S2048x128 .bf16) (r : FVec Ideal S128x512 .bf16) (s : Fin 2048) (e : Fin 512) :
    matmul D none l r (constant S2048x512 .f32 0x00000000#32) (ix2 s e) = ∑ k : Fin 128, l (ix2 s k) * r (ix2 k e) := by
  simp only [matmul]
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx (ix2 s e) ((ValueIdx.contrEquiv1 D 128 rfl rfl).symm k) = ix2 s k := funext fun a => Fin.ext (by
    match a with
    | ⟨0, _⟩ => exact lhs0 _ _
    | ⟨1, _⟩ => exact (lhs1 _ _).trans hk)
  have er : D.rhsIdx (ix2 s e) ((ValueIdx.contrEquiv1 D 128 rfl rfl).symm k) = ix2 k e := funext fun a => Fin.ext (by
    match a with
    | ⟨0, _⟩ => exact (rhs0 _ _).trans hk
    | ⟨1, _⟩ => exact rhs1 _ _)
  rw [el, er]

/-- THE STORED VALUE at (u, s, e). -/
theorem pay_apply (x0 : Vec Ideal S1x2048x128 .f32) (x1 : Vec Ideal S1x512x128 .f32) (x2 : Vec Ideal S1x1x512 .f32)
    (u : Fin 1) (s : Fin 2048) (e : Fin 512) :
    k0_pay1 x0 x1 x2 (ix3 u s e)
      = (∑ k : Fin 128, x0 (ix3 (0 : Fin 1) s k) * x1 (ix3 (0 : Fin 1) e k)) + x2 (ix3 (0 : Fin 1) (0 : Fin 1) e) := by
  unfold k0_pay1
  rw [shapeCast_ab_1ab_apply, addf_apply, matmul_at, broadcastTo_1b_ab_apply, shapeCast_a_1a_apply, shapeCast_11a_a_apply]
  refine congrArg (· + _) (Finset.sum_congr rfl fun k _ => ?_)
  rw [truncf_apply, shapeCast_1ab_ab_apply, transpose_ix2_apply, truncf_apply, shapeCast_1ab_ab_apply]

end Cert.KernelIdeal.Payload

end
-- ==== Proof.KernelValue.lean ====
/-
  The kernel's result array is the specification. The output window writes back, at grid point t, its whole
  [1, 2048, 512] block to slab t of the result, and the 128 slabs tile the result; what point t writes back is
  the payload of the three blocks fetched at t. Entry (0, s, e) of that payload is
  ∑ k, patches(t, s, k) · wm(w, e, k) + bias(w, e), with wm the masked weights and w the table word at t, which
  under the precondition is the branch of sample t: slab t of the specification. So the result is the
  specification everywhere.
-/
import proofs.«119452_j59596966199730_1_alg».proof.Proof.BlockReads
import proofs.«119452_j59596966199730_1_alg».proof.Proof.Payload
import proofs.«119452_j59596966199730_1_alg».proof.Proof.Spec

set_option maxRecDepth 16384

noncomputable section

namespace Cert.KernelIdeal.KValue

open Cert.KernelIdeal Cert.KernelIdeal.Gen Cert.KernelIdeal.Blocks
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The specification of the launch memory of core c. -/
abbrev G (c : Dev nD) : S128x2048x512.Idx → EReal :=
  Cert.Spec.out (m ((c : Thread nD τ).loc main_arg0)) (m ((c : Thread nD τ).loc main_arg1))
    (maskedW (F := Ideal) (m ((c : Thread nD τ).loc main_arg2))) (m ((c : Thread nD τ).loc main_arg3))

/-- The bias with a unit axis inserted reads, at (r, 0, e), the bias at (r, e). -/
theorem shapeCast_ab_a1b_apply {α : Type} {a b : ℕ} (x : (⟨2, ![a, b]⟩ : Shape).Idx → α)
    (h : (⟨2, ![a, b]⟩ : Shape).ShapeCasts ⟨3, ![a, 1, b]⟩) (r : Fin a) (v : Fin 1) (e : Fin b) :
    shapeCast ⟨3, ![a, 1, b]⟩ x h (ix3 r v e) = x (ix2 r e) :=
  shapeCast_apply x h _ _ (by
    have hv : v.val = 0 := by omega
    rw [Shape.rowMajor_val_three, Shape.rowMajor_val_two]
    show r.val * b + e.val = (r.val * 1 + v.val) * b + e.val
    rw [hv]; simp)

/-- The table as the region finds it is the index argument as launched. -/
theorem tbl_eq : tbl m 0 = m (((0 : Dev nD) : Thread nD τ).loc main_arg1) := V_main_arg1 m 0

/-- WHAT POINT t WRITES BACK is block t of the specification. -/
theorem flushed_eq (hO : Ok m) (hidx : ∀ b : Fin 128, (m (((0 : Dev nD) : Thread nD τ).loc main_arg1) (ix1 b)).toNat < 5) (c : Dev nD) (t : Fin (cfgM m hO).N) :
    (dats m hO 0 c).flushed 3 t = (((cfgM m hO).win 3).blk t).view.read (Elt Ideal) (G m c) := by
  obtain rfl : c = 0 := Subsingleton.elim _ _
  show ((cfgM m hO).win 3).cut (grid0.coords t) ((dats m hO 0 0).after 3 t) = _
  rw [after0_3]
  unfold outsAt0
  funext y
  obtain ⟨u, s, e, rfl⟩ : ∃ (u : Fin 1) (s : Fin 2048) (e : Fin 512), y = (ix3 u s e : S1x2048x512.Idx) :=
    ⟨_, _, _, eq_ix3 (n0 := 1) (n1 := 2048) (n2 := 512) y⟩
  -- the branch of sample t, and the three blocks read where the output's entry says
  have hr : ((adm m hO).1 0 (ix1 (pt (adm m hO) t))).toNat
      = (Cert.Spec.row (m (((0 : Dev nD) : Thread nD τ).loc main_arg1) (ix1 (pt (adm m hO) t)))).val := by
    show (tbl m 0 (ix1 (pt (adm m hO) t))).toNat = _
    rw [tbl_eq m]
    exact (Cert.Spec.row_val (hidx _)).symm
  have r0 : ∀ k : Fin 128, iblk m hO 0 0 t (ix3 (0 : Fin 1) s k)
      = m (((0 : Dev nD) : Thread nD τ).loc main_arg0) (ix3 (pt (adm m hO) t) s k) := fun k => by
    show V m 0 main_arg0 ((((cfgM m hO).win 0).blk t).view.emb (ix3 (0 : Fin 1) s k)) = _
    rw [emb0 (adm m hO) t, V_main_arg0]
  have r1 : ∀ k : Fin 128, iblk m hO 0 1 t (ix3 (0 : Fin 1) e k)
      = maskedW (F := Ideal) (m (((0 : Dev nD) : Thread nD τ).loc main_arg2))
          (ix3 (Cert.Spec.row (m (((0 : Dev nD) : Thread nD τ).loc main_arg1) (ix1 (pt (adm m hO) t)))) e k) := fun k => by
    show V m 0 main_v2 ((((cfgM m hO).win 1).blk t).view.emb (ix3 (0 : Fin 1) e k)) = _
    rw [emb1 (adm m hO) t _ hr, V_weights]
  have r2 : iblk m hO 0 2 t (ix3 (0 : Fin 1) (0 : Fin 1) e)
      = m (((0 : Dev nD) : Thread nD τ).loc main_arg3)
          (ix2 (Cert.Spec.row (m (((0 : Dev nD) : Thread nD τ).loc main_arg1) (ix1 (pt (adm m hO) t)))) e) := by
    show V m 0 main_v3 ((((cfgM m hO).win 2).blk t).view.emb (ix3 (0 : Fin 1) (0 : Fin 1) e)) = _
    rw [emb2 (adm m hO) t _ hr, V_bias, shapeCast_ab_a1b_apply]
  -- the stored value is the payload; the payload at (u, s, e) is the sum plus the bias entry; each factor is read
  refine (congrFun (out_eq_pay (F := Ideal) (0 : Dev nD) (grid0.coords t) (ms0_0 m hO t) (hs0_0 m hO t) (ms0_1 m hO t) (hs0_1 m hO t)
    (ms0_2 m hO t) (hs0_2 m hO t) (ms0_3 m hO t) (hs0_3 m hO t) (iblk m hO 0 0 t) (iblk m hO 0 1 t) (iblk m hO 0 2 t) (tbl m 0)) (ix3 u s e)).trans ?_
  refine (Cert.KernelIdeal.Payload.pay_apply (iblk m hO 0 0 t) (iblk m hO 0 1 t) (iblk m hO 0 2 t) u s e).trans ?_
  refine Eq.trans ?_ (congrArg (G m 0) (emb3 (adm m hO) t u s e)).symm
  show _ = Cert.Spec.outAt (m (((0 : Dev nD) : Thread nD τ).loc main_arg0)) (m (((0 : Dev nD) : Thread nD τ).loc main_arg1)) (maskedW (F := Ideal) (m (((0 : Dev nD) : Thread nD τ).loc main_arg2)))
    (m (((0 : Dev nD) : Thread nD τ).loc main_arg3)) (pt (adm m hO) t) s e
  unfold Cert.Spec.outAt
  exact congrArg₂ (· + ·) (Finset.sum_congr rfl fun k _ => congrArg₂ (· * ·) (r0 k) (r1 k)) r2

/-- Every index of the result lies in the block some point writes back: (b, s, e) in the block of point b. -/
theorem cover (hO : Ok m) (c : Dev nD) (i : S128x2048x512.Idx) :
    ∃ t : Fin (cfgM m hO).N, ((cfgM m hO).win 3).flush t = true ∧ i ∈ (((cfgM m hO).win 3).blk t).view.set := by
  obtain ⟨b, s, e, rfl⟩ : ∃ (b : Fin 128) (s : Fin 2048) (e : Fin 512), i = ix3 b s e := ⟨i 0, i 1, i 2, eq_ix3 i⟩
  refine ⟨Fin.cast N_0.symm b, flush0_3 (adm m hO) _, ?_⟩
  refine Finset.mem_map.mpr ⟨(ix3 (0 : Fin 1) s e : S1x2048x512.Idx), Finset.mem_univ _, ?_⟩
  exact emb3 (adm m hO) (Fin.cast N_0.symm b) (0 : Fin 1) s e

/-- THE RESULT ARRAY after the run is the specification. -/
theorem final (hO : Ok m) (hidx : ∀ b : Fin 128, (m (((0 : Dev nD) : Thread nD τ).loc main_arg1) (ix1 b)).toNat < 5) (c : Dev nD) : (dats m hO 0 c).arrAt 3 (cfgM m hO).N = G m c :=
  (dats m hO 0 c).arrAt_eq_of_cover 3 (G m c) (fun t _ => flushed_eq m hO hidx c t) (cover m hO c)

/-- The frame run re-posted: the result at the specification, the arguments unchanged. -/
theorem run (ρ : Dev nD → PrngReg) (hO : Ok m) (hidx : ∀ b : Fin 128, (m (((0 : Dev nD) : Thread nD τ).loc main_arg1) (ix1 b)).toNat < 5) :
    θ_run defs (onTc (τ := τ) (main (F := Ideal))) ⟨m, fun _ => 0, ρ⟩ fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m hO hidx c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ hO)

end Cert.KernelIdeal.KValue

end
-- ==== Proof.HostRun.lean ====
/-
  The reference program's @main is a straight line of 26 host operations: the 0/1 mask table broadcast along the
  512 axis and multiplied into the weights, the branch indices wrapped (a negative index has 5 added, as jnp's
  indexing does) and made a column, two row gathers by that column (of the masked weights and of the bias), one
  batched contraction of the patches with the gathered weights over the last axis, and the gathered bias added
  along the 2048 axis. Here the program is that list, and its run is read back: every weakly fair execution ends
  with the result buffer at ONE term of the four argument arrays (`out`), the arguments unchanged.
-/
import proofs.«119452_j59596966199730_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 26 operations, in order. -/
abbrev ops : List (HloOp τ sig (Elt F)) :=
  [
    nullary main_cst (fun i => FloatOps.ofBits .f32 (lit0 (S5x128.rowMajor i))),
    unary main_cst main_v0 (broadcastInDim S5x1x128 ![0, 2] bcast_S5x128_S5x1x128_0_2 : (⟨S5x128, .f32⟩ : BufTy).Contents (Elt F) → (⟨S5x1x128, .f32⟩ : BufTy).Contents (Elt F)),
    unary main_v0 main_v1 (broadcastInDim S5x512x128 ![0, 1, 2] bcast_S5x1x128_S5x512x128_0_1_2 : (⟨S5x1x128, .f32⟩ : BufTy).Contents (Elt F) → (⟨S5x512x128, .f32⟩ : BufTy).Contents (Elt F)),
    binary main_arg2 main_v1 main_v2 (mulf : (⟨S5x512x128, .f32⟩ : BufTy).Contents (Elt F) → (⟨S5x512x128, .f32⟩ : BufTy).Contents (Elt F) → (⟨S5x512x128, .f32⟩ : BufTy).Contents (Elt F)),
    nullary main_c (constantI S_ 32 0#32),
    unary main_c main_v3 (broadcastInDim S128 ![] bcast_S_S128 : (⟨S_, .i32⟩ : BufTy).Contents (Elt F) → (⟨S128, .i32⟩ : BufTy).Contents (Elt F)),
    binary main_arg1 main_v3 main_v4 (cmpi .slt : (⟨S128, .i32⟩ : BufTy).Contents (Elt F) → (⟨S128, .i32⟩ : BufTy).Contents (Elt F) → (⟨S128, .i1⟩ : BufTy).Contents (Elt F)),
    nullary main_c_0 (constantI S_ 32 5#32),
    unary main_c_0 main_v5 (broadcastInDim S128 ![] bcast_S_S128 : (⟨S_, .i32⟩ : BufTy).Contents (Elt F) → (⟨S128, .i32⟩ : BufTy).Contents (Elt F)),
    binary main_arg1 main_v5 main_v6 (addi : (⟨S128, .i32⟩ : BufTy).Contents (Elt F) → (⟨S128, .i32⟩ : BufTy).Contents (Elt F) → (⟨S128, .i32⟩ : BufTy).Contents (Elt F)),
    ternary main_v4 main_v6 main_arg1 main_v7 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v7 main_v8 (broadcastInDim S128x1 ![0] bcast_S128_S128x1_0 : (⟨S128, .i32⟩ : BufTy).Contents (Elt F) → (⟨S128x1, .i32⟩ : BufTy).Contents (Elt F)),
    binary main_v2 main_v8 main_v9 ((fun x i => Host.gather gather_S5x512x128_S128x1_S128x512x128_12_0_n_n_0_1_1512128 x i) : (⟨S5x512x128, .f32⟩ : BufTy).Contents (Elt F) → (⟨S128x1, .i32⟩ : BufTy).Contents (Elt F) → (⟨S128x512x128, .f32⟩ : BufTy).Contents (Elt F)),
    nullary main_c_1 (constantI S_ 32 0#32),
    unary main_c_1 main_v10 (broadcastInDim S128 ![] bcast_S_S128 : (⟨S_, .i32⟩ : BufTy).Contents (Elt F) → (⟨S128, .i32⟩ : BufTy).Contents (Elt F)),
    binary main_arg1 main_v10 main_v11 (cmpi .slt : (⟨S128, .i32⟩ : BufTy).Contents (Elt F) → (⟨S128, .i32⟩ : BufTy).Contents (Elt F) → (⟨S128, .i1⟩ : BufTy).Contents (Elt F)),
    nullary main_c_2 (constantI S_ 32 5#32),
    unary main_c_2 main_v12 (broadcastInDim S128 ![] bcast_S_S128 : (⟨S_, .i32⟩ : BufTy).Contents (Elt F) → (⟨S128, .i32⟩ : BufTy).Contents (Elt F)),
    binary main_arg1 main_v12 main_v13 (addi : (⟨S128, .i32⟩ : BufTy).Contents (Elt F) → (⟨S128, .i32⟩ : BufTy).Contents (Elt F) → (⟨S128, .i32⟩ : BufTy).Contents (Elt F)),
    ternary main_v11 main_v13 main_arg1 main_v14 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v14 main_v15 (broadcastInDim S128x1 ![0] bcast_S128_S128x1_0 : (⟨S128, .i32⟩ : BufTy).Contents (Elt F) → (⟨S128x1, .i32⟩ : BufTy).Contents (Elt F)),
    binary main_arg3 main_v15 main_v16 ((fun x i => Host.gather gather_S5x512_S128x1_S128x512_1_0_n_n_0_1_1512 x i) : (⟨S5x512, .f32⟩ : BufTy).Contents (Elt F) → (⟨S128x1, .i32⟩ : BufTy).Contents (Elt F) → (⟨S128x512, .f32⟩ : BufTy).Contents (Elt F)),
    binary main_arg0 main_v9 main_v17 ((fun l r => Host.dotGeneral dot_S128x2048x128_S128x512x128_S128x2048x512_2_2_1_1_0_0 none l r) : (⟨S128x2048x128, .f32⟩ : BufTy).Contents (Elt F) → (⟨S128x512x128, .f32⟩ : BufTy).Contents (Elt F) → (⟨S128x2048x512, .f32⟩ : BufTy).Contents (Elt F)),
    unary main_v16 main_v18 (broadcastInDim S128x1x512 ![0, 2] bcast_S128x512_S128x1x512_0_2 : (⟨S128x512, .f32⟩ : BufTy).Contents (Elt F) → (⟨S128x1x512, .f32⟩ : BufTy).Contents (Elt F)),
    unary main_v18 main_v19 (broadcastInDim S128x2048x512 ![0, 1, 2] bcast_S128x1x512_S128x2048x512_0_1_2 : (⟨S128x1x512, .f32⟩ : BufTy).Contents (Elt F) → (⟨S128x2048x512, .f32⟩ : BufTy).Contents (Elt F)),
    binary main_v17 main_v19 main_v20 (addf : (⟨S128x2048x512, .f32⟩ : BufTy).Contents (Elt F) → (⟨S128x2048x512, .f32⟩ : BufTy).Contents (Elt F) → (⟨S128x2048x512, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub ..⟩

/-- The 5 × 128 table of zeros and ones, as floats. -/
def maskTable : FVec F S5x128 .f32 := fun i => FloatOps.ofBits .f32 (lit0 (S5x128.rowMajor i))

/-- The weights with row (r, ·, k) multiplied by the table's entry (r, k). -/
def maskedW (w : FVec F S5x512x128 .f32) : FVec F S5x512x128 .f32 :=
  mulf w (broadcastInDim S5x512x128 ![0, 1, 2] bcast_S5x1x128_S5x512x128_0_1_2 (broadcastInDim S5x1x128 ![0, 2] bcast_S5x128_S5x1x128_0_2 maskTable))

/-- The branch indices with 5 added to the negative ones, as a 128 × 1 column. -/
def wrapped (idx : IVec S128 32) : IVec S128x1 32 :=
  broadcastInDim S128x1 ![0] bcast_S128_S128x1_0
    (select (cmpi .slt idx (broadcastInDim S128 ![] bcast_S_S128 (constantI S_ 32 0#32)))
      (addi idx (broadcastInDim S128 ![] bcast_S_S128 (constantI S_ 32 5#32))) idx)

/-- The result as one term of the arguments: the patches contracted, sample by sample, with the gathered masked
    weights, plus the gathered bias along the 2048 axis. -/
def out (x : FVec F S128x2048x128 .f32) (idx : IVec S128 32) (w : FVec F S5x512x128 .f32) (b : FVec F S5x512 .f32) : FVec F S128x2048x512 .f32 :=
  addf
    (Host.dotGeneral dot_S128x2048x128_S128x512x128_S128x2048x512_2_2_1_1_0_0 none x
      (Host.gather gather_S5x512x128_S128x1_S128x512x128_12_0_n_n_0_1_1512128 (maskedW w) (wrapped idx)))
    (broadcastInDim S128x2048x512 ![0, 1, 2] bcast_S128x1x512_S128x2048x512_0_1_2
      (broadcastInDim S128x1x512 ![0, 2] bcast_S128x512_S128x1x512_0_2
        (Host.gather gather_S5x512_S128x1_S128x512_1_0_n_n_0_1_1512 b (wrapped idx))))

/-- The operations' composed result is `out` of the launch contents of the arguments. -/
theorem after_out (m : (ℓ : Loc nD τ sig) → Buf (Elt F) ℓ) (c : Dev nD) :
    after (ops (F := F)) (launchContents m c) (Proc.devRef .tc main_v20)
      = out (m ((c.tc : Thread nD τ).loc main_arg0)) (m ((c.tc : Thread nD τ).loc main_arg1)) (m ((c.tc : Thread nD τ).loc main_arg2)) (m ((c.tc : Thread nD τ).loc main_arg3)) := by
  after_results_simp
  rfl

/-- On every device, for any float values, from any memory with zero counters: every weakly fair execution of
    @main terminates with the result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v20).trans (after_out m c),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.HostRun

end
-- ==== Proof.LibRowGather.lean ====
/-
  A row gather read at an index. What `x[idx]` of an array `x : [N, A, B]` (or `[N, A]`) at a vector of `R` row
  numbers lowers to: a gather with the row numbers as an `[R, 1]` column, the row axis collapsed, the other axes
  offset axes of full extent. Result element `(r, a, b)` is `x` at row `idx[r, 0]` — read as a signed integer and
  clamped into `[0, N - 1]`, as the gather clamps every start index — and at `(a, b)` inside the row.
-/
import Idealize.ShloMosaic.Lib.ValueIdx

noncomputable section

namespace Idealize.ShloMosaic.RowGather

open Idealize.ShloMosaic Idealize.ShloMosaic.ValueIdx

variable {α : Type}

/-- The dimension numbers of a row gather from `[N, A, B]` by an `[R, 1]` column into `[R, A, B]`. -/
abbrev dims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The dimension numbers of a row gather from `[N, A]` by an `[R, 1]` column into `[R, A]`. -/
abbrev dims2 (N A R : Nat)
    (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

/-- The row a start index selects: its signed value clamped into `[0, N - 1]`. -/
def rowOf (N : Nat) (hN : 0 < N) {w : Nat} (v : BitVec w) : Fin N := ⟨min v.toInt.toNat (N - 1), by omega⟩

/-- THE READ of a rank-3 row gather at `(r, a, b)`. -/
theorem gather3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (dims3 N A B R wf) x idx (ix3 r a b) = x (ix3 (rowOf N hN (idx (ix2 r (0 : Fin 1)))) a b) := by
  unfold Host.gather
  refine congrArg x ?_
  funext ax
  refine Fin.ext ?_
  show (dims3 N A B R wf).start (ix3 r a b) idx ax + (dims3 N A B R wf).batchCoord (ix3 r a b) ax + (dims3 N A B R wf).offCoord (ix3 r a b) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 3) ∈ (dims3 N A B R wf).startIndexMap from List.mem_singleton.mpr rfl)]
    have hsi : (dims3 N A B R wf).siIdx (ix3 r a b) ⟨List.idxOf (⟨0, by decide⟩ : Fin 3) (dims3 N A B R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    unfold GatherDims.start
    rw [dif_neg (show ¬ (⟨1, _⟩ : Fin 3) ∈ (dims3 N A B R wf).startIndexMap by
      show ¬ (⟨1, _⟩ : Fin 3) ∈ [(0 : Fin 3)]
      simp [Fin.ext_iff])]
    unfold GatherDims.offCoord
    rw [dif_pos (show (⟨1, _⟩ : Fin 3) ∈ (dims3 N A B R wf).sKept from
      (GatherDims.mem_sKept _ _).mpr ⟨by show ¬ (⟨1, _⟩ : Fin 3) ∈ [(0 : Fin 3)]; simp [Fin.ext_iff], List.not_mem_nil⟩)]
    simp only [Nat.zero_add]
    rfl
  | ⟨2, _⟩ =>
    unfold GatherDims.start
    rw [dif_neg (show ¬ (⟨2, _⟩ : Fin 3) ∈ (dims3 N A B R wf).startIndexMap by
      show ¬ (⟨2, _⟩ : Fin 3) ∈ [(0 : Fin 3)]
      simp [Fin.ext_iff])]
    unfold GatherDims.offCoord
    rw [dif_pos (show (⟨2, _⟩ : Fin 3) ∈ (dims3 N A B R wf).sKept from
      (GatherDims.mem_sKept _ _).mpr ⟨by show ¬ (⟨2, _⟩ : Fin 3) ∈ [(0 : Fin 3)]; simp [Fin.ext_iff], List.not_mem_nil⟩)]
    simp only [Nat.zero_add]
    rfl

/-- THE READ of a rank-2 row gather at `(r, a)`. -/
theorem gather2_apply {N A R w : Nat} (hN : 0 < N)
    (wf : GatherDims.WF ⟨2, ![N, A]⟩ ⟨2, ![R, 1]⟩ ⟨2, ![R, A]⟩ [1] [0] [] [0] [] 1 ![1, A])
    (x : (⟨2, ![N, A]⟩ : Shape).Idx → α) (idx : IVec ⟨2, ![R, 1]⟩ w) (r : Fin R) (a : Fin A) :
    Host.gather (dims2 N A R wf) x idx (ix2 r a) = x (ix2 (rowOf N hN (idx (ix2 r (0 : Fin 1)))) a) := by
  unfold Host.gather
  refine congrArg x ?_
  funext ax
  refine Fin.ext ?_
  show (dims2 N A R wf).start (ix2 r a) idx ax + (dims2 N A R wf).batchCoord (ix2 r a) ax + (dims2 N A R wf).offCoord (ix2 r a) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ (dims2 N A R wf).startIndexMap from List.mem_singleton.mpr rfl)]
    have hsi : (dims2 N A R wf).siIdx (ix2 r a) ⟨List.idxOf (⟨0, by decide⟩ : Fin 2) (dims2 N A R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    unfold GatherDims.start
    rw [dif_neg (show ¬ (⟨1, _⟩ : Fin 2) ∈ (dims2 N A R wf).startIndexMap by
      show ¬ (⟨1, _⟩ : Fin 2) ∈ [(0 : Fin 2)]
      simp [Fin.ext_iff])]
    unfold GatherDims.offCoord
    rw [dif_pos (show (⟨1, _⟩ : Fin 2) ∈ (dims2 N A R wf).sKept from
      (GatherDims.mem_sKept _ _).mpr ⟨by show ¬ (⟨1, _⟩ : Fin 2) ∈ [(0 : Fin 2)]; simp [Fin.ext_iff], List.not_mem_nil⟩)]
    simp only [Nat.zero_add]
    rfl

end Idealize.ShloMosaic.RowGather

end
-- ==== Proof.RefValue.lean ====
/-
  The reference's result is the specification. Read at (b, s, e): the batched contraction is the sum over the
  128 positions k of patches(b, s, k) times the gathered weights at (b, e, k); the gathered weights at (b, e, k)
  are the masked weights at (row, e, k), the row being the wrapped index word of sample b read signed and clamped
  to [0, 4]; the bias term is the gathered bias at (b, e), the bias at (row, e), carried along the 2048 axis.
  With the index word below 5 the wrap leaves it alone (it is not negative) and its signed, clamped reading is
  the branch it names.
-/
import proofs.«119452_j59596966199730_1_alg».proof.Proof.HostRun
import proofs.«119452_j59596966199730_1_alg».proof.Proof.Spec
import proofs.«119452_j59596966199730_1_alg».proof.Proof.LibRowGather
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.HostRun
open Idealize.ShloMosaic Idealize.ShloMosaic.ValueIdx Idealize.ShloMosaic.RowGather

abbrev D := dot_S128x2048x128_S128x512x128_S128x2048x512_2_2_1_1_0_0

/-- The program's two gathers are row gathers. -/
theorem G3_eq : gather_S5x512x128_S128x1_S128x512x128_12_0_n_n_0_1_1512128 = dims3 5 512 128 128 Facts₀.gather_S5x512x128_S128x1_S128x512x128_12_0_n_n_0_1_1512128_wf := rfl
theorem G2_eq : gather_S5x512_S128x1_S128x512_1_0_n_n_0_1_1512 = dims2 5 512 128 Facts₀.gather_S5x512_S128x1_S128x512_1_0_n_n_0_1_1512_wf := rfl

/-! ## The contraction's operand indices -/

theorem lhs0 (j : S128x2048x512.Idx) (q : D.contr.Idx) : (D.lhsIdx j q 0).val = (j 0).val := by
  unfold DotDims.lhsIdx
  rw [dif_pos (show (0 : Fin S128x2048x128.rank) ∈ D.lhsBatch by decide)]
  rfl
theorem lhs1 (j : S128x2048x512.Idx) (q : D.contr.Idx) : (D.lhsIdx j q 1).val = (j 1).val := by
  unfold DotDims.lhsIdx
  rw [dif_neg (show ¬(1 : Fin S128x2048x128.rank) ∈ D.lhsBatch by decide), dif_pos (show (1 : Fin S128x2048x128.rank) ∈ D.lhsNonContracting by decide)]
  rfl
theorem lhs2 (j : S128x2048x512.Idx) (q : D.contr.Idx) : (D.lhsIdx j q 2).val = (q ⟨0, by decide⟩).val :=
  D.lhsIdx_val_of_single rfl j q
theorem rhs0 (j : S128x2048x512.Idx) (q : D.contr.Idx) : (D.rhsIdx j q 0).val = (j 0).val := by
  unfold DotDims.rhsIdx
  rw [dif_pos (show (0 : Fin S128x512x128.rank) ∈ D.rhsBatch by decide)]
  rfl
theorem rhs1 (j : S128x2048x512.Idx) (q : D.contr.Idx) : (D.rhsIdx j q 1).val = (j 2).val := by
  unfold DotDims.rhsIdx
  rw [dif_neg (show ¬(1 : Fin S128x512x128.rank) ∈ D.rhsBatch by decide), dif_pos (show (1 : Fin S128x512x128.rank) ∈ D.rhsNonContracting by decide)]
  rfl
theorem rhs2 (j : S128x2048x512.Idx) (q : D.contr.Idx) : (D.rhsIdx j q 2).val = (q ⟨0, by decide⟩).val :=
  D.rhsIdx_val_of_single rfl j q

/-- The batched contraction at (b, s, e): the sum over the last axis. -/
theorem dot_at (l : FVec Ideal S128x2048x128 .f32) (r : FVec Ideal S128x512x128 .f32) (b : Fin 128) (s : Fin 2048) (e : Fin 512) :
    Host.dotGeneral D none l r (ix3 b s e) = ∑ k : Fin 128, l (ix3 b s k) * r (ix3 b e k) := by
  simp only [Host.dotGeneral]
  rw [Ideal.dotGeneral_apply, ← Equiv.sum_comp (ValueIdx.contrEquiv1 D 128 rfl rfl).symm]
  refine Finset.sum_congr rfl fun k _ => ?_
  have hk := ValueIdx.contrEquiv1_symm_val D 128 rfl rfl k
  have el : D.lhsIdx (ix3 b s e) ((ValueIdx.contrEquiv1 D 128 rfl rfl).symm k) = ix3 b s k := funext fun a => Fin.ext (by
    match a with
    | ⟨0, _⟩ => exact lhs0 _ _
    | ⟨1, _⟩ => exact lhs1 _ _
    | ⟨2, _⟩ => exact (lhs2 _ _).trans hk)
  have er : D.rhsIdx (ix3 b s e) ((ValueIdx.contrEquiv1 D 128 rfl rfl).symm k) = ix3 b e k := funext fun a => Fin.ext (by
    match a with
    | ⟨0, _⟩ => exact rhs0 _ _
    | ⟨1, _⟩ => exact rhs1 _ _
    | ⟨2, _⟩ => exact (rhs2 _ _).trans hk)
  rw [el, er]

/-! ## The wrapped index column -/

/-- Where the index word is below 5 the wrapped column holds the word itself. -/
theorem wrapped_apply (idx : IVec S128 32) (b : Fin 128) (h : (idx (ix1 b)).toNat < 5) :
    wrapped idx (ix2 b (0 : Fin 1)) = idx (ix1 b) := by
  unfold wrapped
  rw [broadcastInDim_apply _ _ _ (ix2 b (0 : Fin 1)) (ix1 b) (fun a => by match a with | ⟨0, _⟩ => rfl)]
  rw [select_apply]
  have hc : cmpi .slt idx (broadcastInDim S128 ![] bcast_S_S128 (constantI S_ 32 0#32)) (ix1 b) = 0#1 := Cert.Spec.not_slt_zero h
  rw [hc, select_zero]

/-- A word below 5, read signed and clamped to [0, 4], is the branch it names. -/
theorem rowOf_eq {v : BitVec 32} (h : v.toNat < 5) : rowOf 5 (by decide) v = Cert.Spec.row v := by
  refine Fin.ext ?_
  show min v.toInt.toNat (5 - 1) = min v.toNat 4
  rw [Cert.Spec.toInt_of_lt h, Int.toNat_natCast]

/-! ## The result at an index -/

/-- THE REFERENCE'S RESULT, index by index, is the specification of the arguments and the masked weights. -/
theorem out_eq (x : FVec Ideal S128x2048x128 .f32) (idx : IVec S128 32) (w : FVec Ideal S5x512x128 .f32) (bias : FVec Ideal S5x512 .f32)
    (hidx : ∀ b : Fin 128, (idx (ix1 b)).toNat < 5) :
    out x idx w bias = Cert.Spec.out x idx (maskedW w) bias := by
  funext j
  obtain ⟨b, s, e, rfl⟩ : ∃ (b : Fin 128) (s : Fin 2048) (e : Fin 512), j = ix3 b s e := ⟨j 0, j 1, j 2, eq_ix3 j⟩
  rw [Cert.Spec.out_ix3]
  unfold out Cert.Spec.outAt
  rw [addf_apply, dot_at]
  have hb : broadcastInDim S128x2048x512 ![0, 1, 2] bcast_S128x1x512_S128x2048x512_0_1_2
      (broadcastInDim S128x1x512 ![0, 2] bcast_S128x512_S128x1x512_0_2 (Host.gather gather_S5x512_S128x1_S128x512_1_0_n_n_0_1_1512 bias (wrapped idx))) (ix3 b s e)
      = Host.gather gather_S5x512_S128x1_S128x512_1_0_n_n_0_1_1512 bias (wrapped idx) (ix2 b e) := by
    rw [broadcastInDim_apply _ _ _ (ix3 b s e) (ix3 b (0 : Fin 1) e) (fun a => by
      match a with
      | ⟨0, _⟩ => rfl
      | ⟨1, _⟩ => rfl
      | ⟨2, _⟩ => rfl)]
    rw [broadcastInDim_apply _ _ _ (ix3 b (0 : Fin 1) e) (ix2 b e) (fun a => by
      match a with
      | ⟨0, _⟩ => rfl
      | ⟨1, _⟩ => rfl)]
  rw [hb, G2_eq, gather2_apply (by decide), wrapped_apply idx b (hidx b), rowOf_eq (hidx b)]
  refine congrArg (· + _) (Finset.sum_congr rfl fun k _ => ?_)
  rw [G3_eq, gather3_apply (by decide), wrapped_apply idx b (hidx b), rowOf_eq (hidx b)]

end Cert.ReferenceIdeal.RefValue

end
-- ==== Proof.lean ====
/-
  The kernel computes, for each of 128 samples, the product of the sample's [2048, 128] patches with the
  transposed [512, 128] masked weights of the sample's branch, plus that branch's bias; the branch is the
  sample's index word, and the masked weights are the weights times a fixed 0/1 table. The reference gathers
  each sample's masked weights and bias by the same index and contracts. On the extended reals both are

      out[b, s, e] = (∑ k < 128, patches[b, s, k] · (weight · mask)[idx b, e, k]) + bias[idx b, e]

  with the same order of operations, so no algebraic law beyond re-indexing the sum is used and the float inputs'
  finiteness is never opened. The precondition's last conjunct, 0 ≤ idx < 5, is what is used: it puts the
  kernel's weight and bias blocks inside their arrays (the frames), and it makes the reference's wrap of
  negative indices and its clamp do nothing (the values).

  The three frames: the two kernel programs' generated frames under the pipeline's side condition, proved from
  the precondition; the reference's run with its result dropped. `preserves` has no entry. `algebraic`: both
  runs end at the specification of the same arguments and the same masked weights (the two programs print the
  0/1 table as separate constants with the same entries).
-/
import proofs.«119452_j59596966199730_1_alg».proof.Defs
import proofs.«119452_j59596966199730_1_alg».proof.Proof.Gen.Kernel
import proofs.«119452_j59596966199730_1_alg».proof.Proof.Gen.Kernel.Frame
import proofs.«119452_j59596966199730_1_alg».proof.Proof.Gen.KernelIdeal
import proofs.«119452_j59596966199730_1_alg».proof.Proof.Gen.KernelIdeal.Frame
import proofs.«119452_j59596966199730_1_alg».proof.Proof.Gen.ReferenceIdeal
import proofs.«119452_j59596966199730_1_alg».proof.Proof.Gen.Pre_finite_inputs
import proofs.«119452_j59596966199730_1_alg».proof.Proof.PreDecode
import proofs.«119452_j59596966199730_1_alg».proof.Proof.OkBits
import proofs.«119452_j59596966199730_1_alg».proof.Proof.OkIdeal
import proofs.«119452_j59596966199730_1_alg».proof.Proof.KernelValue
import proofs.«119452_j59596966199730_1_alg».proof.Proof.HostRun
import proofs.«119452_j59596966199730_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs' 0/1 tables have the same entries. -/
theorem lit0_eq : Cert.KernelIdeal.lit0 = Cert.ReferenceIdeal.lit0 := rfl

/-- So the masked weights are one array on both sides. -/
theorem maskedW_eq (w : FVec Ideal Cert.KernelIdeal.S5x512x128 .f32) :
    Cert.KernelIdeal.Blocks.maskedW (F := Ideal) w = Cert.ReferenceIdeal.HostRun.maskedW (F := Ideal) w := by
  unfold Cert.KernelIdeal.Blocks.maskedW Cert.ReferenceIdeal.HostRun.maskedW Cert.ReferenceIdeal.HostRun.maskTable
  rw [lit0_eq]

theorem frame_k : Cert.frame_Kernel := fun m ρ h =>
  Cert.Kernel.Gen.frame m ρ (Cert.Kernel.OkOfPre.ok_of_idx m fun b => Cert.PreDecode.idx_lt _ _ _ _ (h 0) b)

theorem frame_ki : Cert.frame_KernelIdeal := fun m ρ h =>
  Cert.KernelIdeal.Gen.frame m ρ (Cert.KernelIdeal.OkOfPre.ok_of_idx m fun b => Cert.PreDecode.idx_lt _ _ _ _ (h 0) b)

theorem frame_ri : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- Both runs end at the specification of arguments that agree. -/
theorem algebraic : Cert.algebraic_KernelIdeal_ReferenceIdeal := by
  intro m ρ m' ρ' hpre hagree
  have hidx : ∀ (c : Dev Cert.KernelIdeal.nD) (b : Fin 128),
      (m ((c.tc : Thread Cert.KernelIdeal.nD Cert.KernelIdeal.τ).loc Cert.KernelIdeal.main_arg1) (ix1 b)).toNat < 5 :=
    fun c b => Cert.PreDecode.idx_lt _ _ _ _ (hpre c) b
  have hO : Cert.KernelIdeal.Gen.Ok m := Cert.KernelIdeal.OkOfPre.ok_of_idx m (hidx 0)
  refine ⟨fun c => Cert.KernelIdeal.KValue.G m c, Cert.KernelIdeal.KValue.run m ρ hO (hidx 0), ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2]
  rw [Cert.ReferenceIdeal.RefValue.out_eq _ _ _ _ (hidx c), ← maskedW_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
